-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S16777216x2 : Shape := ⟨2, ![16777216, 2]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S16777216x2 : S_.BroadcastsInDim S16777216x2 (![] : Fin 0 → Fin S16777216x2.rank)
  reducesTo_S16777216x2_S_d0_1 : S16777216x2.ReducesTo [0, 1] S_

variable [Facts]

def fn {F : FTy → Type} [FloatOps F] (main_arg0 : FVec F S32x4096 .f32) (main_arg1 : FVec F S16777216x2 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  main_v8
-- ==== Kernel.lean ====
abbrev S32x4096 : Shape := ⟨2, ![32, 4096]⟩
abbrev S16777216x2 : Shape := ⟨2, ![16777216, 2]⟩
abbrev S262144x2 : Shape := ⟨2, ![262144, 2]⟩
abbrev S4096x64x2 : Shape := ⟨3, ![4096, 64, 2]⟩
abbrev S4096x64x1 : Shape := ⟨3, ![4096, 64, 1]⟩
abbrev S4096x64 : Shape := ⟨2, ![4096, 64]⟩
abbrev S262144 : Shape := ⟨1, ![262144]⟩
abbrev S1x4096 : Shape := ⟨2, ![1, 4096]⟩
abbrev S4096 : Shape := ⟨1, ![4096]⟩
abbrev S2048x128 : Shape := ⟨2, ![2048, 128]⟩
abbrev S1024x128 : Shape := ⟨2, ![1024, 128]⟩

abbrev nBuf : Space → Nat
  | .hbm => 19
  | .vmem => 8
  | .smem => 0
  | _ => 0

abbrev bufTy : (tb : Table) → Fin (tcTables nBuf tb) → BufTy
  | .hbm, ⟨0, _⟩ => ⟨S32x4096, .f32⟩
  | .hbm, ⟨1, _⟩ => ⟨S16777216x2, .f32⟩
  | .hbm, ⟨2, _⟩ => ⟨S262144x2, .f32⟩
  | .hbm, ⟨3, _⟩ => ⟨S4096x64x2, .f32⟩
  | .hbm, ⟨4, _⟩ => ⟨S4096x64x1, .f32⟩
  | .hbm, ⟨5, _⟩ => ⟨S4096x64, .f32⟩
  | .hbm, ⟨6, _⟩ => ⟨S262144, .f32⟩
  | .hbm, ⟨7, _⟩ => ⟨S4096x64x1, .f32⟩
  | .hbm, ⟨8, _⟩ => ⟨S4096x64, .f32⟩
  | .hbm, ⟨9, _⟩ => ⟨S262144, .f32⟩
  | .hbm, ⟨10, _⟩ => ⟨S1x4096, .f32⟩
  | .hbm, ⟨11, _⟩ => ⟨S4096, .f32⟩
  | .hbm, ⟨12, _⟩ => ⟨S4096x64, .f32⟩
  | .hbm, ⟨13, _⟩ => ⟨S262144, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S262144, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S16777216x2_S262144x2_0_0 : S16777216x2.Slices ![0, 0] S262144x2
  shapeCasts_S262144x2_S4096x64x2 : S262144x2.ShapeCasts S4096x64x2
  slices_S4096x64x2_S4096x64x1_0_0_0 : S4096x64x2.Slices ![0, 0, 0] S4096x64x1
  shapeCasts_S4096x64x1_S4096x64 : S4096x64x1.ShapeCasts S4096x64
  shapeCasts_S4096x64_S262144 : S4096x64.ShapeCasts S262144
  slices_S4096x64x2_S4096x64x1_0_0_1 : S4096x64x2.Slices ![0, 0, 1] S4096x64x1
  slices_S32x4096_S1x4096_0_0 : S32x4096.Slices ![0, 0] S1x4096
  shapeCasts_S1x4096_S4096 : S1x4096.ShapeCasts S4096
  bcast_S4096_S4096x64_0 : S4096.BroadcastsInDim S4096x64 (![0] : Fin 1 → Fin S4096x64.rank)
  shapeCasts_S262144_S2048x128 : S262144.ShapeCasts S2048x128
  shapeCasts_S2048x128_S262144 : S2048x128.ShapeCasts S262144
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S2048x128.size a
  hwx0_1 : ∀ i : grid0.Coords, EltTy.bits .f32 = 32 ∨ (Rect.block (s := S2048x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S2048x128.size a
  hwx0_3 : ∀ i : grid0.Coords, EltTy.bits .f32 = 32 ∨ (Rect.block (s := S2048x128) S1024x128.size (cc0_transform_3 i) (hinb0_3 i)).WholeWords (EltTy.packing .f32)

variable [Facts₀]

abbrev win0_0 : Pipeline.Window sig grid0 :=
  Pipeline.Window.ofSpec (Memref.whole main_call0_v14) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S16777216x2 : Shape := ⟨2, ![16777216, 2]⟩
abbrev S262144x2 : Shape := ⟨2, ![262144, 2]⟩
abbrev S4096x64x2 : Shape := ⟨3, ![4096, 64, 2]⟩
abbrev S4096x64x1 : Shape := ⟨3, ![4096, 64, 1]⟩
abbrev S4096x64 : Shape := ⟨2, ![4096, 64]⟩
abbrev S1x4096 : Shape := ⟨2, ![1, 4096]⟩
abbrev S4096 : Shape := ⟨1, ![4096]⟩
abbrev S4096x1 : Shape := ⟨2, ![4096, 1]⟩
abbrev S_ : Shape := ⟨0, ![]⟩
abbrev S262144 : Shape := ⟨1, ![262144]⟩

abbrev nBuf : Space → Nat
  | .hbm => 22
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S16777216x2, .f32⟩
  | .hbm, ⟨2, _⟩ => ⟨S262144x2, .f32⟩
  | .hbm, ⟨3, _⟩ => ⟨S4096x64x2, .f32⟩
  | .hbm, ⟨4, _⟩ => ⟨S4096x64x1, .f32⟩
  | .hbm, ⟨5, _⟩ => ⟨S4096x64, .f32⟩
  | .hbm, ⟨6, _⟩ => ⟨S4096x64x1, .f32⟩
  | .hbm, ⟨7, _⟩ => ⟨S4096x64, .f32⟩
  | .hbm, ⟨8, _⟩ => ⟨S1x4096, .f32⟩
  | .hbm, ⟨9, _⟩ => ⟨S4096, .f32⟩
  | .hbm, ⟨10, _⟩ => ⟨S4096x1, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S262144, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  slices_S16777216x2_S262144x2_0_0 : S16777216x2.Slices ![0, 0] S262144x2
  shapeCasts_S262144x2_S4096x64x2 : S262144x2.ShapeCasts S4096x64x2
  slices_S4096x64x2_S4096x64x1_0_0_0 : S4096x64x2.Slices ![0, 0, 0] S4096x64x1
  shapeCasts_S4096x64x1_S4096x64 : S4096x64x1.ShapeCasts S4096x64
  slices_S4096x64x2_S4096x64x1_0_0_1 : S4096x64x2.Slices ![0, 0, 1] S4096x64x1
  slices_S32x4096_S1x4096_0_0 : S32x4096.Slices ![0, 0] S1x4096
  shapeCasts_S1x4096_S4096 : S1x4096.ShapeCasts S4096
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  shapeCasts_S4096x64_S262144 : S4096x64.ShapeCasts S262144

variable [Facts₀]

class Facts : Prop extends Facts₀ where

variable [Facts]
-- ==== Proof.Bell.lean ====
/-
  The value both programs compute, on the extended reals.

  For an input value `a`, a centre `b` and a width parameter `s`, the membership value is the Gaussian bell
      bell a b s = exp( -((a - b)·(a - b)) · ½ · (s·s) )
  (the exponent is MULTIPLIED by the square of `s`, in both programs). The result array has 262144 = 4096·64
  entries; entry `n` is the bell of the first batch row's value `x[0, n / 64]` about the centre `P[n, 0]` with
  width parameter `P[n, 1]`: of the parameter table only its first 262144 rows are read, row `n` for entry `n`.

  One program spells the exponent's first factor as `(0 - y) · ½`, the other as `(-y) / 2`, with `y` the squared
  difference. On the extended reals `0 - y = -y` for every `y` (infinite ones included), and a quotient by the
  nonzero real `2` is the product with the real `1/2`, again for every `y`: so neither form needs the inputs
  to be finite.
-/
import Idealize.ShloMosaic.PureOps.Ideal
import Idealize.ShloMosaic.Lib.ValueIdx

noncomputable section

namespace Cert.Fuzzy

open Idealize.ShloMosaic Idealize.ShloMosaic.ValueIdx

/-! ## The three float constants the programs spell, as the reals they denote -/

/-- The pattern of `+0.0` denotes `0`. -/
theorem ofBits_zero : Ideal.ofBits .f32 0x00000000#32 = 0 := by
  simp [Ideal.ofBits, Ideal.ieee]

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-! ## The bell, and its two spellings -/

/-- The Gaussian bell of `a` about `b` with width parameter `s`: `exp(-((a-b)²) · ½ · s²)`. -/
def bell (a b s : EReal) : EReal :=
  Ideal.exp (-((a - b) * (a - b)) * ((1 / 2 : ℝ) : EReal) * (s * s))

/-- The spelling with a subtraction from zero and a product with `0.5`: `0 - y = -y` on every extended real. -/
theorem bell_of_half (a b s : EReal) :
    Ideal.exp ((Ideal.ofBits .f32 0x00000000#32 - (a - b) * (a - b)) * Ideal.ofBits .f32 0x3F000000#32 * (s * s))
      = bell a b s := by
  rw [ofBits_zero, ofBits_half, zero_sub]
  rfl

/-- The spelling with a negation and a quotient by `2.0`: the quotient of any extended real by the nonzero real
    `2` is its product with `1/2`. -/
theorem bell_of_quotient (a b s : EReal) :
    Ideal.exp (Ideal.div (-((a - b) * (a - b))) (Ideal.ofBits .f32 0x40000000#32) * (s * s))
      = bell a b s := by
  rw [ofBits_two, Ideal.div_coe (by norm_num : (2 : ℝ) ≠ 0)]
  rfl

/-! ## The result array -/

/-- Row `n / 64` of the first batch row: the input value entry `n` is about. -/
abbrev inputIdx (n : Fin 262144) : (⟨2, ![32, 4096]⟩ : Shape).Idx :=
  ix2 (⟨0, by omega⟩ : Fin 32) (⟨n.val / 64, by have := n.isLt; omega⟩ : Fin 4096)

/-- Row `n` of the parameter table, column `k` (`0` the centre, `1` the width parameter). -/
abbrev paramIdx (n : Fin 262144) (k : Fin 2) : (⟨2, ![16777216, 2]⟩ : Shape).Idx :=
  ix2 (⟨n.val, by have := n.isLt; omega⟩ : Fin 16777216) k

/-- The membership values, flat: entry `n` is the bell of `x[0, n/64]` about `P[n, 0]` with width `P[n, 1]`. -/
def membership (x : (⟨2, ![32, 4096]⟩ : Shape).Idx → EReal) (P : (⟨2, ![16777216, 2]⟩ : Shape).Idx → EReal) :
    (⟨1, ![262144]⟩ : Shape).Idx → EReal :=
  fun n => bell (x (inputIdx (n 0))) (P (paramIdx (n 0) 0)) (P (paramIdx (n 0) 1))

/-- The flat position of row `r`, lane `l` of the 2048 × 128 arrangement. -/
abbrev flatOf (r : Fin 2048) (l : Fin 128) : Fin 262144 :=
  ⟨r.val * 128 + l.val, by have := r.isLt; have := l.isLt; omega⟩

/-- The same values arranged as 2048 rows of 128 lanes, row-major: entry `(r, l)` is entry `128·r + l`. -/
def membershipRows (x : (⟨2, ![32, 4096]⟩ : Shape).Idx → EReal) (P : (⟨2, ![16777216, 2]⟩ : Shape).Idx → EReal) :
    (⟨2, ![2048, 128]⟩ : Shape).Idx → EReal :=
  fun j => membership x P (ix1 (flatOf (j 0) (j 1)))

end Cert.Fuzzy

end
-- ==== Proof.ReferenceValue.lean ====
/-
  The reference's result, entry by entry.

  The reference slices the first 262144 rows off the parameter table, views them as 4096 × 64 rows of 2, takes
  column 0 (the centres) and column 1 (the width parameters) as 4096 × 64 arrays, takes the first batch row as a
  column of 4096 values repeated along 64 lanes, computes `exp((-(d·d)) / 2 · (s·s))` with `d` the difference,
  and flattens the 4096 × 64 result row-major. Read at the flat index `n` — row `n / 64`, lane `n % 64` of the
  4096 × 64 arrangement —: the input value is `x[0, n / 64]`; the row of the 4096 × 64 × 2 view at
  `(n / 64, n % 64, k)` is the table's row `((n/64)·64 + n%64)·2 + k) / 2 = n`, column `k`. So entry `n` is the
  bell of `x[0, n/64]` about `P[n, 0]` with width `P[n, 1]`, in its quotient spelling.
-/
import proofs.«177563_j8658654069382_2_alg».proof.Proof.Gen.ReferenceIdeal.Read
import proofs.«177563_j8658654069382_2_alg».proof.Proof.Bell

noncomputable section

namespace Cert.Fuzzy.Reference

open Idealize.ShloMosaic Idealize.ShloMosaic.ValueIdx Cert.ReferenceIdeal Cert.ReferenceIdeal.Read

/-- Through the reshape to 4096 × 64, the two broadcasts, the reshape of the sliced row and the slice: the input
    value entry `n` reads is `x[0, n / 64]`. -/
theorem idx_input (n : S262144.Idx) :
    idx_main_v6 (idx_main_v7 (idx_main_v8 (idx_main_v9 (idx_main_v18 n)))) = inputIdx (n 0) := by
  funext a; apply Fin.ext
  have h0 : (n 0).val < 262144 := (n 0).isLt
  match a with
  | ⟨0, _⟩ => rfl
  | ⟨1, _⟩ => show ((n 0).val / 64) % 4096 = (n 0).val / 64; omega

/-- Through the reshapes and the slices of the parameter table: the centre entry `n` reads is `P[n, 0]`. -/
theorem idx_centre (n : S262144.Idx) :
    idx_main_v0 (idx_main_v1 (idx_main_v2 (idx_main_v3 (idx_main_v18 n)))) = paramIdx (n 0) 0 := by
  funext a; apply Fin.ext
  have h0 : (n 0).val < 262144 := (n 0).isLt
  match a with
  | ⟨0, _⟩ =>
    show ((((n 0).val / 64 * 64 + (n 0).val % 64) / 64 * 64 + ((n 0).val / 64 * 64 + (n 0).val % 64) / 1 % 64) * 2 + 0) / 2
      = (n 0).val
    omega
  | ⟨1, _⟩ =>
    show ((((n 0).val / 64 * 64 + (n 0).val % 64) / 64 * 64 + ((n 0).val / 64 * 64 + (n 0).val % 64) / 1 % 64) * 2 + 0) % 2
      = 0
    omega

/-- The same through the slice of column 1: the width parameter entry `n` reads is `P[n, 1]`. -/
theorem idx_width (n : S262144.Idx) :
    idx_main_v0 (idx_main_v1 (idx_main_v4 (idx_main_v5 (idx_main_v18 n)))) = paramIdx (n 0) 1 := by
  funext a; apply Fin.ext
  have h0 : (n 0).val < 262144 := (n 0).isLt
  match a with
  | ⟨0, _⟩ =>
    show ((((n 0).val / 64 * 64 + (n 0).val % 64) / 64 * 64 + ((n 0).val / 64 * 64 + (n 0).val % 64) / 1 % 64) * 2 + (1 + 0)) / 2
      = (n 0).val
    omega
  | ⟨1, _⟩ =>
    show ((((n 0).val / 64 * 64 + (n 0).val % 64) / 64 * 64 + ((n 0).val / 64 * 64 + (n 0).val % 64) / 1 % 64) * 2 + (1 + 0)) % 2
      = 1
    omega

/-- The reference's last stage, on the extended reals, is the membership array of its two arguments. -/
theorem result_eq (x0 : (⟨S32x4096, .f32⟩ : BufTy).Contents (Elt Ideal))
    (x1 : (⟨S16777216x2, .f32⟩ : BufTy).Contents (Elt Ideal)) :
    val_main_v18 (F := Ideal) x0 x1 = membership x0 x1 := by
  funext n
  simp only [val_main_v18_apply, val_main_v17_apply, val_main_v16_apply, val_main_v15_apply, val_main_v14_apply,
    val_main_v13_apply, val_main_cst_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply]
  rw [idx_input, idx_centre, idx_width]
  simp only [Ideal.hostUnary_exp_def, Ideal.mulf_def, Ideal.hostDivf_def, Ideal.hostNegf_def, Ideal.negf_def,
    Ideal.subf_def, Ideal.ofBits_def]
  exact bell_of_quotient _ _ _

end Cert.Fuzzy.Reference

end
-- ==== Proof.BodyValue.lean ====
/-
  The kernel body's arithmetic, entry by entry.

  On one 1024 × 128 block the body loads three blocks — the input values `a`, the centres `b`, the width parameters
  `s` —, and stores `exp((0 - (a-b)·(a-b)) · 0.5 · (s·s))`, every operation pointwise (the body's shape casts are
  from the block's shape to itself). So the stored block, at every position of the block, is the bell of the three
  loaded values at that position, in its spelling with a subtraction from zero and a product with 0.5.
-/
import proofs.«177563_j8658654069382_2_alg».proof.Proof.Gen.KernelIdeal.Skeleton
import proofs.«177563_j8658654069382_2_alg».proof.Proof.Bell
import Idealize.ShloMosaic.Lib.Pipeline.Value

noncomputable section

namespace Cert.Fuzzy.Kernel

open Idealize.ShloMosaic Idealize.ShloMosaic.ValueIdx Cert.KernelIdeal Cert.KernelIdeal.Gen

/-- The block the body stores holds, at each position `j`, the bell of the three loaded blocks' values at `j`. -/
theorem stored_apply (a b s : Vec Ideal S1024x128 .f32) (j : S1024x128.Idx) :
    k0_pay1 (F := Ideal) a b s j = bell (a j) (b j) (s j) := by
  unfold k0_pay1
  simp only [shapeCast_self]
  show Ideal.exp ((Ideal.ofBits .f32 0x00000000#32 - (a j - b j) * (a j - b j)) * Ideal.ofBits .f32 0x3F000000#32
      * (s j * s j)) = _
  exact bell_of_half _ _ _

end Cert.Fuzzy.Kernel

end
-- ==== Proof.Layout.lean ====
/-
  Re-arrangements of the 262144 values, read at an index.

  Both programs move the same values between three row-major arrangements: flat (262144), a grid of 4096 rows of 64
  (row `i` belongs to input `i`, lane `j` to its `j`-th membership function), and 2048 rows of 128 lanes (the
  kernel's). A row-major reshape keeps the flat position, so position `(r, l)` of the 2048 × 128 arrangement is flat
  position `n = 128·r + l`, which is position `(n / 64, n % 64)` of the grid. The parameter table's first 262144 rows,
  viewed as a 4096 × 64 grid of pairs, have at `(n / 64, n % 64)` the table's row `n`; the first batch row repeated
  along the 64 lanes has there the value `x[0, n / 64]`.
-/
import Idealize.ShloMosaic.Lib.Pipeline.Value
import Idealize.ShloMosaic.Lib.ValueIdx
import proofs.«177563_j8658654069382_2_alg».proof.Proof.Bell

noncomputable section

namespace Cert.Fuzzy

open Idealize.ShloMosaic Idealize.ShloMosaic.ValueIdx

variable {α : Type}

/-- The grid position of flat position `n`: row `n / 64`, lane `n % 64`. -/
abbrev gridOf (n : Fin 262144) : (⟨2, ![4096, 64]⟩ : Shape).Idx :=
  ix2 (⟨n.val / 64, by have := n.isLt; omega⟩ : Fin 4096) (⟨n.val % 64, by omega⟩ : Fin 64)

/-- The position of flat position `n` in the grid of pairs (or of singletons), at component `k`. -/
abbrev cubeOf {w : Nat} (n : Fin 262144) (k : Fin w) : (⟨3, ![4096, 64, w]⟩ : Shape).Idx :=
  ix3 (⟨n.val / 64, by have := n.isLt; omega⟩ : Fin 4096) (⟨n.val % 64, by omega⟩ : Fin 64) k

/-- A grid flattened and then cut into 2048 rows of 128, read at `e`, is the grid at the position of `128·e₀ + e₁`. -/
theorem regrid_apply (z : (⟨2, ![4096, 64]⟩ : Shape).Idx → α)
    (h1 : (⟨2, ![4096, 64]⟩ : Shape).ShapeCasts ⟨1, ![262144]⟩)
    (h2 : (⟨1, ![262144]⟩ : Shape).ShapeCasts ⟨2, ![2048, 128]⟩) (e : (⟨2, ![2048, 128]⟩ : Shape).Idx) :
    shapeCast ⟨2, ![2048, 128]⟩ (shapeCast ⟨1, ![262144]⟩ z h1) h2 e = z (gridOf (flatOf (e 0) (e 1))) := by
  refine (shapeCast_apply _ h2 e (ix1 (flatOf (e 0) (e 1))) ?_).trans ?_
  · rw [Shape.rowMajor_val_one, Shape.rowMajor_val_two]; rfl
  · refine shapeCast_apply z h1 (ix1 (flatOf (e 0) (e 1))) (gridOf (flatOf (e 0) (e 1))) ?_
    rw [Shape.rowMajor_val_two, Shape.rowMajor_val_one]
    show (flatOf (e 0) (e 1)).val / 64 * 64 + (flatOf (e 0) (e 1)).val % 64 = (flatOf (e 0) (e 1)).val
    omega

/-- The 2048 × 128 arrangement flattened, read at `n`, is the arrangement at `(n / 128, n % 128)`. -/
theorem flatten_rows_apply (y : (⟨2, ![2048, 128]⟩ : Shape).Idx → α)
    (h : (⟨2, ![2048, 128]⟩ : Shape).ShapeCasts ⟨1, ![262144]⟩) (n : (⟨1, ![262144]⟩ : Shape).Idx) :
    shapeCast ⟨1, ![262144]⟩ y h n
      = y (ix2 (⟨(n 0).val / 128, by have h : (n 0).val < 262144 := (n 0).isLt; omega⟩ : Fin 2048)
          (⟨(n 0).val % 128, by omega⟩ : Fin 128)) := by
  refine shapeCast_apply y h n _ ?_
  rw [Shape.rowMajor_val_two, Shape.rowMajor_val_one]
  show (n 0).val / 128 * 128 + (n 0).val % 128 = (n 0).val
  omega

/-- The table's first 262144 rows viewed as a 4096 × 64 grid of pairs: at the position of flat position `n`,
    component `k`, it has the table's row `n`, column `k`. -/
theorem table_view_apply (P : (⟨2, ![16777216, 2]⟩ : Shape).Idx → α)
    (hs : (⟨2, ![16777216, 2]⟩ : Shape).Slices ![0, 0] ⟨2, ![262144, 2]⟩)
    (hc : (⟨2, ![262144, 2]⟩ : Shape).ShapeCasts ⟨3, ![4096, 64, 2]⟩) (n : Fin 262144) (k : Fin 2) :
    shapeCast ⟨3, ![4096, 64, 2]⟩ (extractStridedSlice ⟨2, ![262144, 2]⟩ ![0, 0] P hs) hc (cubeOf n k)
      = P (paramIdx n k) := by
  refine (shapeCast_apply _ hc (cubeOf n k) (ix2 n k) ?_).trans ?_
  · rw [Shape.rowMajor_val_two, Shape.rowMajor_val_three]
    show n.val * 2 + k.val = (n.val / 64 * 64 + n.val % 64) * 2 + k.val
    omega
  · refine extractStridedSlice_apply ![0, 0] P hs (ix2 n k) (paramIdx n k) fun a => ?_
    match a with
    | ⟨0, _⟩ => show n.val = 0 + n.val; omega
    | ⟨1, _⟩ => show k.val = 0 + k.val; omega

/-- Column `k` of a grid of pairs, as a grid: at the position of flat position `n` it has the pair's component `k`. -/
theorem column_apply (k : Fin 2) (y : (⟨3, ![4096, 64, 2]⟩ : Shape).Idx → α)
    (hs : (⟨3, ![4096, 64, 2]⟩ : Shape).Slices ![0, 0, k.val] ⟨3, ![4096, 64, 1]⟩)
    (hc : (⟨3, ![4096, 64, 1]⟩ : Shape).ShapeCasts ⟨2, ![4096, 64]⟩) (n : Fin 262144) :
    shapeCast ⟨2, ![4096, 64]⟩ (extractStridedSlice ⟨3, ![4096, 64, 1]⟩ ![0, 0, k.val] y hs) hc (gridOf n)
      = y (cubeOf n k) := by
  refine (shapeCast_apply _ hc (gridOf n) (cubeOf n (0 : Fin 1)) ?_).trans ?_
  · rw [Shape.rowMajor_val_three, Shape.rowMajor_val_two]
    show (n.val / 64 * 64 + n.val % 64) * 1 + 0 = n.val / 64 * 64 + n.val % 64
    omega
  · refine extractStridedSlice_apply ![0, 0, k.val] y hs (cubeOf n (0 : Fin 1)) (cubeOf n k) fun a => ?_
    match a with
    | ⟨0, _⟩ => show n.val / 64 = 0 + n.val / 64; omega
    | ⟨1, _⟩ => show n.val % 64 = 0 + n.val % 64; omega
    | ⟨2, _⟩ => show k.val = k.val + 0; omega

/-- The first batch row, as a column of 4096 values repeated along 64 lanes: at the position of flat position `n`
    it has `x[0, n / 64]`. -/
theorem first_row_apply (X : (⟨2, ![32, 4096]⟩ : Shape).Idx → α)
    (hs : (⟨2, ![32, 4096]⟩ : Shape).Slices ![0, 0] ⟨2, ![1, 4096]⟩)
    (hc : (⟨2, ![1, 4096]⟩ : Shape).ShapeCasts ⟨1, ![4096]⟩)
    (hb : (⟨1, ![4096]⟩ : Shape).BroadcastsInDim ⟨2, ![4096, 64]⟩ (![0] : Fin 1 → Fin 2)) (n : Fin 262144) :
    broadcastInDim ⟨2, ![4096, 64]⟩ ![0] hb (shapeCast ⟨1, ![4096]⟩ (extractStridedSlice ⟨2, ![1, 4096]⟩ ![0, 0] X hs) hc)
        (gridOf n)
      = X (inputIdx n) := by
  have hn := n.isLt
  refine (broadcastInDim_apply _ hb _ (gridOf n) (ix1 (⟨n.val / 64, by omega⟩ : Fin 4096)) fun a => ?_).trans ?_
  · match a with
    | ⟨0, _⟩ => show n.val / 64 = if (4096 : Nat) = 1 then 0 else n.val / 64; rw [if_neg (by decide)]
  refine (shapeCast_apply _ hc (ix1 (⟨n.val / 64, by omega⟩ : Fin 4096))
    (ix2 (⟨0, by omega⟩ : Fin 1) (⟨n.val / 64, by omega⟩ : Fin 4096)) ?_).trans ?_
  · rw [Shape.rowMajor_val_two, Shape.rowMajor_val_one]
    show 0 * 4096 + n.val / 64 = n.val / 64
    omega
  · refine extractStridedSlice_apply ![0, 0] X hs _ (inputIdx n) fun a => ?_
    match a with
    | ⟨0, _⟩ => show 0 = 0 + 0; rfl
    | ⟨1, _⟩ => show n.val / 64 = 0 + n.val / 64; omega

end Cert.Fuzzy

end
-- ==== Proof.StagedInputs.lean ====
/-
  What the region finds in its three input arrays.

  Before the region the program prepares, from its two arguments, three 2048 × 128 arrays: the first batch row
  repeated along 64 lanes, and columns 0 and 1 of the first 262144 rows of the parameter table, each flattened
  row-major and cut into 2048 rows of 128. Read at a position `e` — flat position `n = 128·e₀ + e₁` — they hold
  `x[0, n / 64]`, `P[n, 0]` and `P[n, 1]`.
-/
import proofs.«177563_j8658654069382_2_alg».proof.Proof.Gen.KernelIdeal.Frame
import proofs.«177563_j8658654069382_2_alg».proof.Proof.Layout
import Idealize.ShloMosaic.Lib.StableHlo.Run

noncomputable section

namespace Cert.Fuzzy.Kernel

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The array of input values, as the region finds it: at `e` it holds `x[0, n / 64]`, `n = 128·e₀ + e₁`. -/
theorem staged_input_apply (c : Dev nD) (e : S2048x128.Idx) :
    (V m c main_call0_v14 : S2048x128.Idx → Elt F .f32) e
      = (m ((c : Thread nD τ).loc main_arg0) : S32x4096.Idx → Elt F .f32) (inputIdx (flatOf (e 0) (e 1))) := by
  have term : (V m c main_call0_v14 : S2048x128.Idx → Elt F .f32)
      = shapeCast S2048x128 (shapeCast S262144 (broadcastInDim S4096x64 ![0] bcast_S4096_S4096x64_0
          (shapeCast S4096 (extractStridedSlice S1x4096 ![0, 0] (m ((c : Thread nD τ).loc main_arg0))
            slices_S32x4096_S1x4096_0_0) shapeCasts_S1x4096_S4096)) shapeCasts_S4096x64_S262144)
          shapeCasts_S262144_S2048x128 := by
    show StableHlo.after hostOps0 (fun b => m (c, b)) (Proc.devRef .tc main_call0_v14) = _
    after_results
    rfl
  rw [term]
  exact (regrid_apply _ _ _ e).trans (first_row_apply _ _ _ _ _)

/-- The array of centres, as the region finds it: at `e` it holds `P[n, 0]`. -/
theorem staged_centre_apply (c : Dev nD) (e : S2048x128.Idx) :
    (V m c main_call0_v12 : S2048x128.Idx → Elt F .f32) e
      = (m ((c : Thread nD τ).loc main_arg1) : S16777216x2.Idx → Elt F .f32) (paramIdx (flatOf (e 0) (e 1)) 0) := by
  have term : (V m c main_call0_v12 : S2048x128.Idx → Elt F .f32)
      = shapeCast S2048x128 (shapeCast S262144 (shapeCast S4096x64 (extractStridedSlice S4096x64x1 ![0, 0, 0]
          (shapeCast S4096x64x2 (extractStridedSlice S262144x2 ![0, 0] (m ((c : Thread nD τ).loc main_arg1))
            slices_S16777216x2_S262144x2_0_0) shapeCasts_S262144x2_S4096x64x2)
          slices_S4096x64x2_S4096x64x1_0_0_0) shapeCasts_S4096x64x1_S4096x64) shapeCasts_S4096x64_S262144)
          shapeCasts_S262144_S2048x128 := by
    show StableHlo.after hostOps0 (fun b => m (c, b)) (Proc.devRef .tc main_call0_v12) = _
    after_results
    rfl
  rw [term]
  exact ((regrid_apply _ _ _ e).trans (column_apply (0 : Fin 2) _ _ _ _)).trans (table_view_apply _ _ _ _ _)

/-- The array of width parameters, as the region finds it: at `e` it holds `P[n, 1]`. -/
theorem staged_width_apply (c : Dev nD) (e : S2048x128.Idx) :
    (V m c main_call0_v13 : S2048x128.Idx → Elt F .f32) e
      = (m ((c : Thread nD τ).loc main_arg1) : S16777216x2.Idx → Elt F .f32) (paramIdx (flatOf (e 0) (e 1)) 1) := by
  have term : (V m c main_call0_v13 : S2048x128.Idx → Elt F .f32)
      = shapeCast S2048x128 (shapeCast S262144 (shapeCast S4096x64 (extractStridedSlice S4096x64x1 ![0, 0, 1]
          (shapeCast S4096x64x2 (extractStridedSlice S262144x2 ![0, 0] (m ((c : Thread nD τ).loc main_arg1))
            slices_S16777216x2_S262144x2_0_0) shapeCasts_S262144x2_S4096x64x2)
          slices_S4096x64x2_S4096x64x1_0_0_1) shapeCasts_S4096x64x1_S4096x64) shapeCasts_S4096x64_S262144)
          shapeCasts_S262144_S2048x128 := by
    show StableHlo.after hostOps0 (fun b => m (c, b)) (Proc.devRef .tc main_call0_v13) = _
    after_results
    rfl
  rw [term]
  exact ((regrid_apply _ _ _ e).trans (column_apply (1 : Fin 2) _ _ _ _)).trans (table_view_apply _ _ _ _ _)

end Cert.Fuzzy.Kernel

end
-- ==== Proof.RegionValue.lean ====
/-
  The region's output array after the run.

  The grid has two points; at point `t` all four windows sit on block `(t, 0)`: rows `1024·t … 1024·t + 1023`, all
  128 lanes, of their 2048 × 128 arrays. The body stores, at each position of the block, the bell of the three input
  blocks' values there; an input block at a position is its array at the same position of the 2048 × 128 arrangement.
  So what point `t` writes back is block `t` of ONE array — the membership values arranged as 2048 rows of 128 —, the
  two blocks cover that array (row `r` is in block `r / 1024`), and the output array ends holding it.
-/
import proofs.«177563_j8658654069382_2_alg».proof.Proof.Gen.KernelIdeal.Frame
import proofs.«177563_j8658654069382_2_alg».proof.Proof.BodyValue
import proofs.«177563_j8658654069382_2_alg».proof.Proof.StagedInputs
import Idealize.ShloMosaic.Lib.Pipeline.Value

noncomputable section

namespace Cert.Fuzzy.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The body's loads and its store are at offset zero of the block. -/
theorem offsets_zero : (![0, 0] : Fin 2 → Nat) = fun _ => 0 := funext fun a => by fin_cases a <;> rfl

/-- At every grid point the three input windows sit on the output window's block, and that is block `(t, 0)`. -/
theorem same_block : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- The membership values of the two argument arrays, arranged as 2048 rows of 128. -/
abbrev rowsOf (c : Dev nD) : S2048x128.Idx → Elt Ideal .f32 :=
  membershipRows (m ((c : Thread nD τ).loc main_arg0)) (m ((c : Thread nD τ).loc main_arg1))

/-- What point `t` writes back is block `t` of the membership values in rows. -/
theorem flushed_eq (c : Dev nD) (t : Fin cfg0.N) :
    (dats m 0 c).flushed 3 t = ((cfg0.win 3).blk t).view.read (Elt Ideal) (rowsOf m c) := by
  show (cfg0.win 3).cut (grid0.coords t) ((dats m 0 c).after 3 t) = _
  rw [after0_3]
  unfold out0_3
  rw [View.canon_unit_zero offsets_zero]
  simp only [View.ld_unit_zero (S := S1024x128) offsets_zero]
  obtain ⟨e00, e01, e10, e11, e20, e21, -, -⟩ := same_block t
  funext j
  have hj0 : (j 0).val < 1024 := (j 0).isLt
  have hj1 : (j 1).val < 128 := (j 1).isLt
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 128 + 1 * (j 1).val = win0_3.index t (1 : Fin 2) * 128 + 1 * (j 1).val; omega
  show k0_pay1 (F := Ideal) (iblk m c 0 t) (iblk m c 1 t) (iblk m c 2 t) j
    = rowsOf m c (((cfg0.win 3).blk t).view.emb j)
  refine (stored_apply (iblk m c 0 t) (iblk m c 1 t) (iblk m c 2 t) j).trans ?_
  show bell (V m c main_call0_v14 (((cfg0.win 0).blk t).view.emb j))
      (V m c main_call0_v12 (((cfg0.win 1).blk t).view.emb j))
      (V m c main_call0_v13 (((cfg0.win 2).blk t).view.emb j)) = _
  rw [h0, h1, h2, staged_input_apply, staged_centre_apply, staged_width_apply]
  rfl

/-- A position of the array is in point `t`'s block iff each coordinate is in the block's range on its axis. -/
theorem mem_block (t : Fin cfg0.N) (i : S2048x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_call0_v15).slice (win0_3.rect t)).set ↔ _
  rw [View.set_slice_whole, Rect.mem_set_unit]
  exact Iff.rfl

/-- Every position is in some point's block: row `r` is in block `r / 1024`. -/
theorem covered (i : S2048x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hN : cfg0.N = 2 := N_0
  obtain ⟨t, ht⟩ : ∃ t : Fin cfg0.N, t.val = (i 0).val / 1024 := ⟨⟨(i 0).val / 1024, by rw [hN]; omega⟩, rfl⟩
  obtain ⟨-, -, -, -, -, -, e0, e1⟩ := same_block t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The output array after the run holds the membership values in rows. -/
theorem region_result (c : Dev nD) : (dats m 0 c).arrAt 3 cfg0.N = rowsOf m c :=
  (dats m 0 c).arrAt_eq_of_cover 3 (rowsOf m c) (fun t _ => flushed_eq m c t) covered

end Cert.Fuzzy.Kernel

end
-- ==== Proof.ProgramValue.lean ====
/-
  The kernel program's result.

  After the region the program flattens the region's 2048 × 128 output array row-major into its result of 262144
  entries. The region's array holds the membership values in rows (entry `(r, l)` is value `128·r + l`), and flat
  position `n` reads row `n / 128`, lane `n % 128`, that is value `n`: the result is the membership array. The
  two argument arrays are written by no operation and end as they were.
-/
import proofs.«177563_j8658654069382_2_alg».proof.Proof.RegionValue
import Idealize.ShloMosaic.Lib.StableHlo.Run

noncomputable section

namespace Cert.Fuzzy.Kernel

open Idealize.ShloMosaic Idealize.ShloMosaic.TcCoe Idealize.SL.Sem Idealize.ShloMosaic.ValueIdx
open Cert.KernelIdeal Cert.KernelIdeal.Gen

/-- The values in rows, flattened row-major, are the values in their flat order. -/
theorem flatten_rows (x : (⟨2, ![32, 4096]⟩ : Shape).Idx → EReal) (P : (⟨2, ![16777216, 2]⟩ : Shape).Idx → EReal)
    (h : (⟨2, ![2048, 128]⟩ : Shape).ShapeCasts ⟨1, ![262144]⟩) :
    shapeCast ⟨1, ![262144]⟩ (membershipRows x P) h = membership x P := by
  funext n
  have hn : (n 0).val < 262144 := (n 0).isLt
  rw [flatten_rows_apply]
  show membership x P (ix1 (flatOf (⟨(n 0).val / 128, by omega⟩ : Fin 2048) (⟨(n 0).val % 128, by omega⟩ : Fin 128)))
    = membership x P n
  congr 1
  funext a
  match a with
  | ⟨0, _⟩ => apply Fin.ext; show (n 0).val / 128 * 128 + (n 0).val % 128 = (n 0).val; omega

variable (m : (ℓ : Loc nD τ sig) → Buf (Elt Ideal) ℓ) (ρ : Dev nD → PrngReg)

/-- What the program's result buffer holds after the operation that follows the region: the membership array of the
    two arguments. -/
theorem result_eq (c : Dev nD) :
    Pipeline.afterTail₀ cfgs (dats m) 0 (V0 m) [hostOps1] c main_v0
      = membership (m ((c.tc : Thread nD τ).loc main_arg0)) (m ((c.tc : Thread nD τ).loc main_arg1)) := by
  have hw : Pipeline.withArrays (cfgs 0).spec c (V0 m c) (fun w => (dats m 0 c).arrAt w (cfgs 0).N)
      (Proc.devRef .tc main_call0_v15) = (dats m 0 c).arrAt 3 cfg0.N :=
    Pipeline.withArrays_arr spec0 launch0.win.arr_inj c _ _ 3
  unfold Pipeline.afterTail₀
  show StableHlo.after hostOps1 _ (Proc.devRef .tc main_v0) = _
  after_results
  refine Eq.trans (b := shapeCast S262144 (Pipeline.withArrays (cfgs 0).spec c (V0 m c)
    (fun w => (dats m 0 c).arrAt w (cfgs 0).N) (Proc.devRef .tc main_call0_v15)) shapeCasts_S2048x128_S262144) rfl ?_
  rw [hw, region_result]
  exact flatten_rows _ _ _

/-- Every weakly fair execution of the kernel program, on the extended reals, terminates with its result at the
    membership array of its arguments and the arguments unchanged. -/
theorem run : θ_run defs (onTc (τ := τ) (main (F := Ideal))) ⟨m, fun _ => 0, ρ⟩ fun r => ∀ c : Dev nD,
      r.2.mem ((c.tc : Thread nD τ).loc main_v0)
        = membership (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Fuzzy.Kernel

end
-- ==== Proof.lean ====
/-
  A fuzzy-membership layer: 4096 inputs, 64 Gaussian membership functions each. From the first batch row
  `x[0, ·]` and the first 262144 rows of a parameter table `P` (row `n = 64·i + j` holds the centre and the width
  parameter of input `i`'s `j`-th function) both programs compute the 262144 values
      out[n] = exp( -((x[0, n/64] - P[n,0])²) · ½ · P[n,1]² ).
  The kernel lays the values out as 2048 rows of 128 lanes and computes them in two blocks of 1024 rows, spelling
  the exponent `(0 - d²) · 0.5 · s²`; the reference computes them on a 4096 × 64 grid, spelling it
  `(-d²) / 2 · s²`. On the extended reals `0 - y = -y` and `y / 2 = y · ½` for every `y`, and a row-major
  re-arrangement keeps the flat position, so the two results are the same array (the precondition is not used for
  this). The modules: Bell (the value and its two spellings), Layout (the re-arrangements read at an index),
  ReferenceValue (the reference's result), BodyValue (one block's arithmetic), StagedInputs (the three arrays the
  region reads), RegionValue (the region's output array), ProgramValue (the kernel program's result and run).
-/
import proofs.«177563_j8658654069382_2_alg».proof.Defs
import proofs.«177563_j8658654069382_2_alg».proof.Proof.Gen.Kernel
import proofs.«177563_j8658654069382_2_alg».proof.Proof.Gen.Kernel.Skeleton
import proofs.«177563_j8658654069382_2_alg».proof.Proof.Gen.Kernel.Launch
import proofs.«177563_j8658654069382_2_alg».proof.Proof.Gen.Kernel.Points
import proofs.«177563_j8658654069382_2_alg».proof.Proof.Gen.Kernel.Frame
import proofs.«177563_j8658654069382_2_alg».proof.Proof.Gen.KernelIdeal
import proofs.«177563_j8658654069382_2_alg».proof.Proof.Gen.KernelIdeal.Skeleton
import proofs.«177563_j8658654069382_2_alg».proof.Proof.Gen.KernelIdeal.Launch
import proofs.«177563_j8658654069382_2_alg».proof.Proof.Gen.KernelIdeal.Points
import proofs.«177563_j8658654069382_2_alg».proof.Proof.Gen.KernelIdeal.Frame
import proofs.«177563_j8658654069382_2_alg».proof.Proof.Gen.ReferenceIdeal
import proofs.«177563_j8658654069382_2_alg».proof.Proof.Gen.ReferenceIdeal.Run
import proofs.«177563_j8658654069382_2_alg».proof.Proof.Gen.ReferenceIdeal.Read
import proofs.«177563_j8658654069382_2_alg».proof.Proof.Gen.Pre_finite_inputs
import proofs.«177563_j8658654069382_2_alg».proof.Proof.ReferenceValue
import proofs.«177563_j8658654069382_2_alg».proof.Proof.ProgramValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- On the extended reals, from memories agreeing on the two arguments, both programs end with the membership array
    of the arguments: the kernel program by its run, the reference by its run and its result read entry by entry. -/
theorem algebraic : Cert.algebraic_KernelIdeal_ReferenceIdeal := by
  intro m ρ m' ρ' _ hagree
  refine ⟨fun c => Cert.Fuzzy.membership
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Fuzzy.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Fuzzy.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
